-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S32x256x128 : Shape := ⟨3, ![32, 256, 128]⟩
abbrev S4096x32 : Shape := ⟨2, ![4096, 32]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S32x256x128 : S_.BroadcastsInDim S32x256x128 (![] : Fin 0 → Fin S32x256x128.rank)
  reducesTo_S32x256x128_S_d0_1_2 : S32x256x128.ReducesTo [0, 1, 2] S_

variable [Facts]

def fn {F : FTy → Type} [FloatOps F] (main_arg0 : FVec F S4x2048x4096 .f32) (main_arg1 : FVec F S32x256x128 .f32) (main_arg2 : IVec S4096x32 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S32x256x128 .f32 := Host.absf main_arg1
  let main_cst_0 : FVec F S_ .f32 := constant S_ .f32 0x7F800000#32
  let main_v5 : FVec F S32x256x128 .f32 := broadcastInDim S32x256x128 ![] bcast_S_S32x256x128 main_cst_0
  let main_v6 : IVec S32x256x128 1 := cmpf .olt main_v4 main_v5
  let main_c_1 : IVec S_ 1 := constantI S_ 1 1#1
  let main_v7 : IVec S_ 1 := (fun x v => Host.reduce IntOp.andi x v reducesTo_S32x256x128_S_d0_1_2 h_S_) main_v6 main_c_1
  let main_v8 : IVec S_ 1 := andi main_v3 main_v7
  main_v8
-- ==== Kernel.lean ====
abbrev S4x2048x4096 : Shape := ⟨3, ![4, 2048, 4096]⟩
abbrev S32x256x128 : Shape := ⟨3, ![32, 256, 128]⟩
abbrev S4096x32 : Shape := ⟨2, ![4096, 32]⟩
abbrev S32 : Shape := ⟨1, ![32]⟩
abbrev S1x32 : Shape := ⟨2, ![1, 32]⟩
abbrev S_ : Shape := ⟨0, ![]⟩
abbrev S4096x32x1 : Shape := ⟨3, ![4096, 32, 1]⟩
abbrev S4096x32x2 : Shape := ⟨3, ![4096, 32, 2]⟩
abbrev S4096x32x128 : Shape := ⟨3, ![4096, 32, 128]⟩
abbrev S4096x4096 : Shape := ⟨2, ![4096, 4096]⟩
abbrev S8192x4096 : Shape := ⟨2, ![8192, 4096]⟩
abbrev S2048x1024 : Shape := ⟨2, ![2048, 1024]⟩
abbrev S1024x1024 : Shape := ⟨2, ![1024, 1024]⟩

abbrev nBuf : Space → Nat
  | .hbm => 30
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S32x256x128, .f32⟩
  | .hbm, ⟨2, _⟩ => ⟨S4096x32, .i32⟩
  | .hbm, ⟨3, _⟩ => ⟨S32, .i32⟩
  | .hbm, ⟨4, _⟩ => ⟨S1x32, .i32⟩
  | .hbm, ⟨5, _⟩ => ⟨S_, .i32⟩
  | .hbm, ⟨6, _⟩ => ⟨S1x32, .i32⟩
  | .hbm, ⟨7, _⟩ => ⟨S1x32, .i1⟩
  | .hbm, ⟨8, _⟩ => ⟨S_, .i32⟩
  | .hbm, ⟨9, _⟩ => ⟨S1x32, .i32⟩
  | .hbm, ⟨10, _⟩ => ⟨S1x32, .i32⟩
  | .hbm, ⟨11, _⟩ => ⟨S1x32, .i32⟩
  | .hbm, ⟨12, _⟩ => ⟨S_, .i32⟩
  | .hbm, ⟨13, _⟩ => ⟨S4096x32, .i32⟩
  | .hbm, ⟨14, _⟩ => ⟨S4096x32, .i1⟩
  | .hbm, ⟨15, _⟩ => ⟨S_, .i32⟩
  | .hbm, ⟨16, _⟩ => ⟨S4096x32, .i32⟩
  | .hbm, ⟨17, _⟩ => ⟨S4096x32, .i32⟩
  | .hbm, ⟨18, _⟩ => ⟨S4096x32, .i32⟩
  | .hbm, ⟨19, _⟩ => ⟨S4096x32, .i32⟩
  | .hbm, ⟨20, _⟩ => ⟨S4096x32x1, .i32⟩
  | .hbm, ⟨21, _⟩ => ⟨S4096x32x1, .i32⟩
  | .hbm, ⟨22, _⟩ => ⟨S4096x32x2, .i32⟩
  | .hbm, ⟨23, _⟩ => ⟨S4096x32x128, .f32⟩
  | .hbm, ⟨24, _⟩ => ⟨S4096x4096, .f32⟩
  | .hbm, ⟨25, _⟩ => ⟨S8192x4096, .f32⟩
  | .hbm, ⟨26, _⟩ => ⟨S8192x4096, .bf16⟩
  | .hbm, ⟨27, _⟩ => ⟨S4096x4096, .bf16⟩
  | .hbm, ⟨28, _⟩ => ⟨S8192x4096, .f32⟩
  | .hbm, ⟨29, _⟩ => ⟨S4x2048x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S32_S1x32_1 : S32.BroadcastsInDim S1x32 (![1] : Fin 1 → Fin S1x32.rank)
  bcast_S_S1x32 : S_.BroadcastsInDim S1x32 (![] : Fin 0 → Fin S1x32.rank)
  bcast_S_S4096x32 : S_.BroadcastsInDim S4096x32 (![] : Fin 0 → Fin S4096x32.rank)
  bcast_S1x32_S4096x32_0_1 : S1x32.BroadcastsInDim S4096x32 (![0, 1] : Fin 2 → Fin S4096x32.rank)
  bcast_S4096x32_S4096x32x1_0_1 : S4096x32.BroadcastsInDim S4096x32x1 (![0, 1] : Fin 2 → Fin S4096x32x1.rank)
  concatenates_S4096x32x1_S4096x32x1_S4096x32x2_d2 : Shape.Concatenates [S4096x32x1, S4096x32x1] S4096x32x2 2
  shapeCasts_S4096x32x128_S4096x4096 : S4096x32x128.ShapeCasts S4096x4096
  shapeCasts_S4x2048x4096_S8192x4096 : S4x2048x4096.ShapeCasts S8192x4096
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S8192x4096_S4x2048x4096 : S8192x4096.ShapeCasts S4x2048x4096
  gather_S32x256x128_S4096x32x2_S4096x32x128_2_01_n_n_01_2_11128_wf : GatherDims.WF S32x256x128 S4096x32x2 S4096x32x128 [2] [0, 1] [] [0, 1] [] 2 ![1, 1, 128]
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .bf16 = 32 ∨ (Rect.block (s := S8192x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x4096.size a
  hwx0_2 : ∀ i : grid0.Coords, EltTy.bits .f32 = 32 ∨ (Rect.block (s := S8192x4096) S2048x1024.size (cc0_transform_2 i) (hinb0_2 i)).WholeWords (EltTy.packing .f32)

variable [Facts₀]

def gather_S32x256x128_S4096x32x2_S4096x32x128_2_01_n_n_01_2_11128 : GatherDims S32x256x128 S4096x32x2 S4096x32x128 where
  offsetDims := [2]
  collapsedSliceDims := [0, 1]
  operandBatchingDims := []
  startIndicesBatchingDims := []
  startIndexMap := [0, 1]
  indexVectorDim := 2
  sliceSizes := ![1, 1, 128]
  wf := gather_S32x256x128_S4096x32x2_S4096x32x128_2_01_n_n_01_2_11128_wf
def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_v19) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S32x256x128 : Shape := ⟨3, ![32, 256, 128]⟩
abbrev S4096x32 : Shape := ⟨2, ![4096, 32]⟩
abbrev S32 : Shape := ⟨1, ![32]⟩
abbrev S1x32 : Shape := ⟨2, ![1, 32]⟩
abbrev S_ : Shape := ⟨0, ![]⟩
abbrev S4096x32x1 : Shape := ⟨3, ![4096, 32, 1]⟩
abbrev S4096x32x2 : Shape := ⟨3, ![4096, 32, 2]⟩
abbrev S4096x32x128 : Shape := ⟨3, ![4096, 32, 128]⟩
abbrev S4096x4096 : Shape := ⟨2, ![4096, 4096]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S32x256x128, .f32⟩
  | .hbm, ⟨2, _⟩ => ⟨S4096x32, .i32⟩
  | .hbm, ⟨3, _⟩ => ⟨S32, .i32⟩
  | .hbm, ⟨4, _⟩ => ⟨S1x32, .i32⟩
  | .hbm, ⟨5, _⟩ => ⟨S_, .i32⟩
  | .hbm, ⟨6, _⟩ => ⟨S1x32, .i32⟩
  | .hbm, ⟨7, _⟩ => ⟨S1x32, .i1⟩
  | .hbm, ⟨8, _⟩ => ⟨S_, .i32⟩
  | .hbm, ⟨9, _⟩ => ⟨S1x32, .i32⟩
  | .hbm, ⟨10, _⟩ => ⟨S1x32, .i32⟩
  | .hbm, ⟨11, _⟩ => ⟨S1x32, .i32⟩
  | .hbm, ⟨12, _⟩ => ⟨S_, .i32⟩
  | .hbm, ⟨13, _⟩ => ⟨S4096x32, .i32⟩
  | .hbm, ⟨14, _⟩ => ⟨S4096x32, .i1⟩
  | .hbm, ⟨15, _⟩ => ⟨S_, .i32⟩
  | .hbm, ⟨16, _⟩ => ⟨S4096x32, .i32⟩
  | .hbm, ⟨17, _⟩ => ⟨S4096x32, .i32⟩
  | .hbm, ⟨18, _⟩ => ⟨S4096x32, .i32⟩
  | .hbm, ⟨19, _⟩ => ⟨S4096x32, .i32⟩
  | .hbm, ⟨20, _⟩ => ⟨S4096x32x1, .i32⟩
  | .hbm, ⟨21, _⟩ => ⟨S4096x32x1, .i32⟩
  | .hbm, ⟨22, _⟩ => ⟨S4096x32x2, .i32⟩
  | .hbm, ⟨23, _⟩ => ⟨S4096x32x128, .f32⟩
  | .hbm, ⟨24, _⟩ => ⟨S4096x4096, .f32⟩
  | .hbm, ⟨25, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S_S1x32 : S_.BroadcastsInDim S1x32 (![] : Fin 0 → Fin S1x32.rank)
  bcast_S_S4096x32 : S_.BroadcastsInDim S4096x32 (![] : Fin 0 → Fin S4096x32.rank)
  bcast_S1x32_S4096x32_0_1 : S1x32.BroadcastsInDim S4096x32 (![0, 1] : Fin 2 → Fin S4096x32.rank)
  bcast_S4096x32_S4096x32x1_0_1 : S4096x32.BroadcastsInDim S4096x32x1 (![0, 1] : Fin 2 → Fin S4096x32x1.rank)
  concatenates_S4096x32x1_S4096x32x1_S4096x32x2_d2 : Shape.Concatenates [S4096x32x1, S4096x32x1] S4096x32x2 2
  shapeCasts_S4096x32x128_S4096x4096 : S4096x32x128.ShapeCasts S4096x4096
  gather_S32x256x128_S4096x32x2_S4096x32x128_2_01_n_n_01_2_11128_wf : GatherDims.WF S32x256x128 S4096x32x2 S4096x32x128 [2] [0, 1] [] [0, 1] [] 2 ![1, 1, 128]
  dot_S4x2048x4096_S4096x4096_S4x2048x4096_2_1_01_0_n_n_wf : DotDims.WF S4x2048x4096 S4096x4096 S4x2048x4096 [2] [1] [0, 1] [0] [] []

variable [Facts₀]

def gather_S32x256x128_S4096x32x2_S4096x32x128_2_01_n_n_01_2_11128 : GatherDims S32x256x128 S4096x32x2 S4096x32x128 where
  offsetDims := [2]
  collapsedSliceDims := [0, 1]
  operandBatchingDims := []
  startIndicesBatchingDims := []
  startIndexMap := [0, 1]
  indexVectorDim := 2
  sliceSizes := ![1, 1, 128]
  wf := gather_S32x256x128_S4096x32x2_S4096x32x128_2_01_n_n_01_2_11128_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.LibIndexReads.lean ====
/-
  General readings of array operations at one entry, over the extended reals or over any element type: a matrix product
  against a transposed right operand, a column spread along rows, an array of rows grouped into batches and back, a
  trailing unit axis added to a matrix, and the sum (of squares) along the last axis of a rank-3 array. Each says which
  entry of the operand an entry of the result reads, with indices written by their coordinates.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.Lib.IndexReads

open Idealize.ShloMosaic Idealize.ShloMosaic.ValueIdx

/-! ## A matrix product with the right operand transposed -/

/-- A matrix product A · Bᵀ: both operands contract their SECOND axis, and the accumulator is the zero array. The entry
    (a, b) of the result is the sum over the shared coordinate c of A[a, c] · B[b, c]: the accumulator contributes 0,
    and the sum over the one-axis contraction index is the sum over that axis's coordinate. -/
theorem matmul_nt_apply {m n k : Nat} {φ₁ φ₂ : FTy}
    (w : DotDims.WF ⟨2, ![m, k]⟩ ⟨2, ![n, k]⟩ ⟨2, ![m, n]⟩ [1] [1] [0] [0] [] [])
    (prec : Option ContractPrecision)
    (A : FVec Ideal ⟨2, ![m, k]⟩ φ₁) (B : FVec Ideal ⟨2, ![n, k]⟩ φ₂) (a : Fin m) (b : Fin n) :
    matmul (⟨[1], [1], [0], [0], [], [], w⟩ : DotDims _ _ _) prec A B (constant (F := Ideal) _ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  -- the left operand is read at (a, c): its row from the result's row, its column from the contraction
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  -- the right operand is read at (b, c): its ROW from the result's column
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-! ## A column spread along the rows -/

/-- An `[a, 1]` column broadcast to `[a, b]` reads, at `(p, c)`, the column's entry of row `p`: the unit axis is read
    at 0 whatever `c` is. (The row form, `[1, b]` to `[a, b]`, is the library's `broadcastTo_1b_ab_apply`.) -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    -- if the column has one row only, that row is row 0
    show p.val = if a = 1 then 0 else p.val
    split
    · have := p.isLt; omega
    · rfl
  | ⟨1, _⟩ => rfl

/-! ## Rows grouped into batches, and back -/

/-- An `[A, B, k]` array viewed as the `[N, k]` array of all its rows (`N = A · B`): row `q = p · B + n` is row `n` of
    batch `p`, because both have the same position in row-major order. -/
theorem flatten_apply {α : Type} {A B N k : ℕ} (x : (⟨3, ![A, B, k]⟩ : Shape).Idx → α)
    (h : (⟨3, ![A, B, k]⟩ : Shape).ShapeCasts ⟨2, ![N, k]⟩)
    (q : Fin N) (p : Fin A) (n : Fin B) (d : Fin k) (hq : q.val = p.val * B + n.val) :
    shapeCast ⟨2, ![N, k]⟩ x h (ix2 q d) = x (ix3 p n d) :=
  shapeCast_apply x h _ _ (by
    rw [Shape.rowMajor_val_three, Shape.rowMajor_val_two]
    show (p.val * B + n.val) * k + d.val = q.val * k + d.val
    rw [hq])

/-- The other direction: the `[N, k]` array of rows viewed as `[A, B, k]` reads, at row `n` of batch `p`, row
    `q = p · B + n`. -/
theorem unflatten_apply {α : Type} {A B N k : ℕ} (x : (⟨2, ![N, k]⟩ : Shape).Idx → α)
    (h : (⟨2, ![N, k]⟩ : Shape).ShapeCasts ⟨3, ![A, B, k]⟩)
    (q : Fin N) (p : Fin A) (n : Fin B) (d : Fin k) (hq : q.val = p.val * B + n.val) :
    shapeCast ⟨3, ![A, B, k]⟩ x h (ix3 p n d) = x (ix2 q d) :=
  shapeCast_apply x h _ _ (by
    rw [Shape.rowMajor_val_three, Shape.rowMajor_val_two]
    show q.val * k + d.val = (p.val * B + n.val) * k + d.val
    rw [hq])

/-! ## A trailing unit axis -/

/-- An `[a, b]` array given a trailing unit axis (a sum taken with the summed axis kept) reads, at `(p, n, u)`, its
    entry `(p, n)`. -/
theorem keepdims_apply {α : Type} {a b : ℕ} (Y : (⟨2, ![a, b]⟩ : Shape).Idx → α)
    (h : (⟨2, ![a, b]⟩ : Shape).BroadcastsInDim ⟨3, ![a, b, 1]⟩ ![0, 1]) (p : Fin a) (n : Fin b) (u : Fin 1) :
    broadcastInDim ⟨3, ![a, b, 1]⟩ ![0, 1] h Y (ix3 p n u) = Y (ix2 p n) :=
  broadcastInDim_apply _ h Y _ _ fun ax => by
    match ax with
    | ⟨0, _⟩ =>
      show p.val = if a = 1 then 0 else p.val
      split
      · have := p.isLt; omega
      · rfl
    | ⟨1, _⟩ =>
      show n.val = if b = 1 then 0 else n.val
      split
      · have := n.isLt; omega
      · rfl

/-! ## Sums along the last axis of a rank-3 array -/

/-- The host's sum along the last axis of an `[A, B, K]` array, at `(p, n)`: the initial value plus the sum over `e` of
    the entry `(p, n, e)`. The reduced index with the summed coordinate put back on the last axis is `(p, n, e)`. -/
theorem hostReduceAdd_last3_apply {A B K : ℕ} {φ : FTy} {u : Shape} (Z : FVec Ideal ⟨3, ![A, B, K]⟩ φ)
    (init : u.Idx → Ideal φ) (h' : (⟨3, ![A, B, K]⟩ : Shape).ReducesTo [2] ⟨2, ![A, B]⟩)
    (hR : (⟨3, ![A, B, K]⟩ : Shape).Reduces [2] ⟨2, ![A, B]⟩) (hu : 0 < u.numel) (p : Fin A) (n : Fin B) :
    Host.reduceAdd (F := Ideal) Z init h' hu (ix2 p n) = init (Shape.Idx.first hu) + ∑ e : Fin K, Z (ix3 p n e) := by
  rw [hostReduceAdd_apply, Ideal.hostReduceAdd_single h' hR]
  refine congrArg (init (Shape.Idx.first hu) + ·) ?_
  show ∑ e : Fin K, Z (hR.lift (ix2 p n) e) = _
  refine Finset.sum_congr rfl fun e _ => ?_
  have he : hR.lift (ix2 p n) e = ix3 p n e := by
    funext ax; apply Fin.ext
    match ax with
    | ⟨0, _⟩ => rfl
    | ⟨1, _⟩ => rfl
    | ⟨2, _⟩ => rfl
  rw [he]

/-- The host's sum of squares along the last axis, from the zero word, of an array first widened to f32: at `(p, n)` the
    sum over `e` of the square of the entry `(p, n, e)`. The widening is the identity on extended reals and the zero word
    is 0. -/
theorem hostSumSq_last3_apply {A B K : ℕ} {φ : FTy} {u : Shape} (X : FVec Ideal ⟨3, ![A, B, K]⟩ φ)
    (hlt : φ.bits < FTy.bits .f32) (h' : (⟨3, ![A, B, K]⟩ : Shape).ReducesTo [2] ⟨2, ![A, B]⟩)
    (hR : (⟨3, ![A, B, K]⟩ : Shape).Reduces [2] ⟨2, ![A, B]⟩) (hu : 0 < u.numel) (p : Fin A) (n : Fin B) :
    Host.reduceAdd (F := Ideal) (mulf (extf .f32 X hlt) (extf .f32 X hlt)) (constant (F := Ideal) u .f32 0x00000000#32) h' hu
        (ix2 p n)
      = ∑ e : Fin K, X (ix3 p n e) * X (ix3 p n e) := by
  rw [hostReduceAdd_last3_apply _ _ h' hR hu p n]
  show Ideal.ofBits .f32 0x00000000#32 + ∑ e : Fin K, X (ix3 p n e) * X (ix3 p n e) = _
  rw [Ideal.ofBits_zero_f32, zero_add]

end Cert.Lib.IndexReads

end
-- ==== Proof.KernelBody.lean ====
/-
  One grid point of the kernel. The body holds an f32 tile acc[2048, 1024] of the result, a tile a[2048, 1024] of the
  flattened activations and a tile w[1024, 1024] of the weight matrix (rows are output features), and leaves

      acc + a · wᵀ        entry (p, q):  acc[p, q] + ∑ s < 1024, a[p, s] · w[q, s]

  in the result tile. At the first of the four points along the contraction axis it first overwrites the tile with
  zeros, so there it leaves 0 + a · wᵀ.
-/
import proofs.«147119_j72430328479853_2_alg».proof.Proof.Gen.KernelIdeal.Frame
import proofs.«147119_j72430328479853_2_alg».proof.Proof.LibIndexReads
import Idealize.ShloMosaic.Lib.Pipeline.Value
import Idealize.ShloMosaic.Lib.Tactic

noncomputable section

open scoped BigOperators
open Idealize.ShloMosaic Idealize.ShloMosaic.TcCoe Idealize.SL.Sem

namespace Cert.KernelIdeal.Body

open Cert.KernelIdeal Cert.KernelIdeal.Gen Idealize.ShloMosaic.ValueIdx

variable {F : FTy → Type} [FloatOps F]

/-- Every load and store of the body starts at the tile's corner. -/
theorem hz : (![0, 0] : Fin 2 → Nat) = fun _ => 0 := funext fun a => by fin_cases a <;> rfl

/-- Away from the first point of a contraction run the body's one store covers the result tile: it holds the tile's
    running contents `xo` plus the product of the two input tiles. -/
theorem out_B (c : Dev nD) (i : grid0.Coords) (a3 : Memref sig .tc .vmem S2048x1024 .bf16) (h3 : a3.IsWhole)
    (a4 : Memref sig .tc .vmem S1024x1024 .bf16) (h4 : a4.IsWhole) (a5 : Memref sig .tc .vmem S2048x1024 .f32) (h5 : a5.IsWhole)
    (hc : ¬cond0_0 i) (x0 : Vec F S2048x1024 .bf16) (x1 : Vec F S1024x1024 .bf16) (xo : Vec F S2048x1024 .f32) :
    out0_B_2 c i a3 h3 a4 h4 a5 h5 hc x0 x1 xo = k0_pay2 xo x0 x1 := by
  unfold out0_B_2
  rw [View.read_writes_eq_canon _ _ _ (cover0_B_2 c i a3 h3 a4 h4 a5 h5 hc x0 x1 xo)]
  unfold kernelRun0_B
  dsimp only
  rw [View.canon_unit_zero hz]
  simp only [View.readAt_eq_ld, h3.read_unread, h4.read_unread, h5.read_unread,
    View.ld_unit_zero (S := S2048x1024) hz, View.ld_unit_zero (S := S1024x1024) hz]

/-- At the first point of a contraction run the body stores the zero tile, reads it back, and stores the zero tile
    plus the product: the second store covers the first. -/
theorem out_A (c : Dev nD) (i : grid0.Coords) (a3 : Memref sig .tc .vmem S2048x1024 .bf16) (h3 : a3.IsWhole)
    (a4 : Memref sig .tc .vmem S1024x1024 .bf16) (h4 : a4.IsWhole) (a5 : Memref sig .tc .vmem S2048x1024 .f32) (h5 : a5.IsWhole)
    (hc : cond0_0 i) (x0 : Vec F S2048x1024 .bf16) (x1 : Vec F S1024x1024 .bf16) :
    out0_A_2 c i a3 h3 a4 h4 a5 h5 hc x0 x1 = k0_pay2 (k0_pay1 (F := F)) x0 x1 := by
  unfold out0_A_2
  rw [View.read_writes_eq_canon _ _ _ (cover0_A_2 c i a3 h3 a4 h4 a5 h5 hc x0 x1)]
  unfold kernelRun0_A
  dsimp only
  sl_unfold_words
  rw [View.canon_cons_unit_zero (S := S2048x1024) hz, View.readCov_unit_zero (S := S2048x1024) _ hz]
  simp only [View.readAt_eq_ld, h3.read_unread, h4.read_unread,
    View.ld_unit_zero (S := S2048x1024) hz, View.ld_unit_zero (S := S1024x1024) hz]

/-- The zero tile, at any entry, is 0. -/
theorem zero_apply (j : S2048x1024.Idx) : k0_pay1 (F := Ideal) j = 0 := by
  show Ideal.ofBits .f32 0x00000000#32 = 0
  exact Ideal.ofBits_zero_f32

/-- The stored tile at entry (p, q): the running entry plus the sum over the 1024 shared columns of a[p, s] · w[q, s].
    The casts in the body are between equal shapes, the product's own accumulator is the zero array, and both operands
    contract their second axis. -/
theorem pay2_apply (v3 : FVec Ideal S2048x1024 .f32) (v5 : FVec Ideal S2048x1024 .bf16) (v7 : FVec Ideal S1024x1024 .bf16)
    (p : Fin 2048) (q : Fin 1024) :
    k0_pay2 (F := Ideal) v3 v5 v7 (ix2 p q) = v3 (ix2 p q) + ∑ s : Fin 1024, v5 (ix2 p s) * v7 (ix2 q s) := by
  unfold k0_pay2
  simp only [shapeCast_self]
  refine (addf_apply _ _ _).trans ?_
  refine congrArg (v3 (ix2 p q) + ·) ?_
  exact Cert.Lib.IndexReads.matmul_nt_apply dot_S2048x1024_S1024x1024_S2048x1024_1_1_0_0_n_n_wf none v5 v7 p q

end Cert.KernelIdeal.Body

end
-- ==== Proof.KernelBlocks.lean ====
/-
  Which tiles a grid point works on. The 64 points run in row-major order over (i, j, k) ∈ 4 × 4 × 4, so point n is
  (i, j, k) = (n / 16, n / 4 % 4, n % 4). At that point the kernel reads tile (i, k) of the flattened activations
  (tiles of 2048 × 1024) and tile (j, k) of the weight matrix (tiles of 1024 × 1024), and works on tile (i, j) of the
  result (tiles of 2048 × 1024): entry (p, s) of a tile with block index (u, v) is entry (u · rows + p, v · cols + s)
  of the array.
-/
import proofs.«147119_j72430328479853_2_alg».proof.Proof.Gen.KernelIdeal.Frame
import Idealize.ShloMosaic.Lib.ValueIdx
import Idealize.ShloMosaic.Lib.Pipeline.Value

noncomputable section

open Idealize.ShloMosaic Idealize.ShloMosaic.TcCoe Idealize.SL.Sem

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The three block index maps at point n, decided over the 64 points: activations (n / 16, n % 4), weights
    (n / 4 % 4, n % 4), result (n / 16, n / 4 % 4). -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 16 ∧ win0_2.index t (1 : Fin 2) = t.val / 4 % 4 :=
  (by decide +kernel : ∀ t : Fin grid0.N, _)

/-- Entry (p, s) of the activations' tile at point n is entry (n / 16 · 2048 + p, n % 4 · 1024 + s) of the flattened
    activations as the kernel finds them. -/
theorem iblk0_apply (c : Dev nD) (t : Fin cfg0.N) (p : Fin 2048) (s : Fin 1024) (r : Fin 8192) (d : Fin 4096)
    (hr : r.val = t.val / 16 * 2048 + p.val) (hd : d.val = t.val % 4 * 1024 + s.val) :
    (iblk m c 0 t : Vec F S2048x1024 .bf16) (ix2 p s) = V m c main_v19 (ix2 r d) := by
  obtain ⟨e0, e1, -⟩ := idx_facts t
  unfold iblk
  rw [View.read_apply]
  show V m c main_v19 (((cfg0.win 0).blk t).view.emb (ix2 p s)) = V m c main_v19 (ix2 r d)
  refine congrArg (V m c main_v19) ?_
  funext a; apply Fin.ext
  match a with
  | ⟨0, _⟩ => show win0_0.index t (0 : Fin 2) * 2048 + 1 * p.val = r.val; omega
  | ⟨1, _⟩ => show win0_0.index t (1 : Fin 2) * 1024 + 1 * s.val = d.val; omega

/-- Entry (q, s) of the weights' tile at point n is entry (n / 4 % 4 · 1024 + q, n % 4 · 1024 + s) of the weight matrix
    as the kernel finds it. -/
theorem iblk1_apply (c : Dev nD) (t : Fin cfg0.N) (q : Fin 1024) (s : Fin 1024) (o : Fin 4096) (d : Fin 4096)
    (ho : o.val = t.val / 4 % 4 * 1024 + q.val) (hd : d.val = t.val % 4 * 1024 + s.val) :
    (iblk m c 1 t : Vec F S1024x1024 .bf16) (ix2 q s) = V m c main_v20 (ix2 o d) := by
  obtain ⟨-, -, e2, e3, -⟩ := idx_facts t
  unfold iblk
  rw [View.read_apply]
  show V m c main_v20 (((cfg0.win 1).blk t).view.emb (ix2 q s)) = V m c main_v20 (ix2 o d)
  refine congrArg (V m c main_v20) ?_
  funext a; apply Fin.ext
  match a with
  | ⟨0, _⟩ => show win0_1.index t (0 : Fin 2) * 1024 + 1 * q.val = o.val; omega
  | ⟨1, _⟩ => show win0_1.index t (1 : Fin 2) * 1024 + 1 * s.val = d.val; omega

/-- Entry (p, q) of the result's tile at point n sits at entry (n / 16 · 2048 + p, n / 4 % 4 · 1024 + q) of the result. -/
theorem oblk_emb (t : Fin cfg0.N) (p : Fin 2048) (q : Fin 1024) (r : Fin 8192) (o : Fin 4096)
    (hr : r.val = t.val / 16 * 2048 + p.val) (ho : o.val = t.val / 4 % 4 * 1024 + q.val) :
    ((cfg0.win 2).blk t).view.emb (ix2 p q) = ix2 r o := by
  obtain ⟨-, -, -, -, e4, e5⟩ := idx_facts t
  funext a; apply Fin.ext
  match a with
  | ⟨0, _⟩ => show win0_2.index t (0 : Fin 2) * 2048 + 1 * p.val = r.val; omega
  | ⟨1, _⟩ => show win0_2.index t (1 : Fin 2) * 1024 + 1 * q.val = o.val; omega

end Cert.KernelIdeal.Blocks

end
-- ==== Proof.LibBlockAcc.lean ====
import Mathlib.Algebra.BigOperators.Fin
import Mathlib.Algebra.BigOperators.Intervals

/-!
# A long sum taken in consecutive blocks

A contraction over `n * K` terms may be accumulated block by block: start from zero and, for `k = 0, 1, …`,
add the sum of the `n` consecutive terms `n * k, …, n * k + n - 1`. After `k` blocks the accumulator holds the sum of
the first `n * k` terms, and after all `K` of them the whole sum. Only commutativity and associativity of `+` are
used, so nothing here asks the terms to be finite: the lemmas hold on the extended reals as they stand.
-/

namespace BlockAcc

open Finset

/-- The sum of the first `n * k` terms of a sequence: what the accumulator holds after `k` blocks of length `n`. -/
def partialSum {M : Type*} [AddCommMonoid M] (n : ℕ) (f : ℕ → M) (k : ℕ) : M := ∑ d ∈ range (n * k), f d

/-- Before any block the accumulator is zero. -/
theorem partialSum_zero {M : Type*} [AddCommMonoid M] (n : ℕ) (f : ℕ → M) : partialSum n f 0 = 0 := by
  simp [partialSum]

/-- One more block: the accumulator gains the sum of the next `n` consecutive terms. -/
theorem partialSum_succ {M : Type*} [AddCommMonoid M] (n : ℕ) (f : ℕ → M) (k : ℕ) :
    partialSum n f (k + 1) = partialSum n f k + ∑ s : Fin n, f (n * k + s.val) := by
  unfold partialSum
  rw [Nat.mul_succ, Finset.sum_range_add, Fin.sum_univ_eq_sum_range (fun s => f (n * k + s)) n]

/-- After all `K` blocks the accumulator holds the whole sum over `Fin N`, when `N = n * K`. -/
theorem partialSum_all {M : Type*} [AddCommMonoid M] (n K N : ℕ) (h : N = n * K) (f : ℕ → M) :
    partialSum n f K = ∑ d : Fin N, f d.val := by
  subst h
  unfold partialSum
  rw [Fin.sum_univ_eq_sum_range f (n * K)]

end BlockAcc
-- ==== Proof.Spec.lean ====
/-
  The specification. The layer multiplies the activations by a dense weight matrix assembled from the codebooks:
  with x of shape [4, 2048, 4096] and W of shape [4096, 4096] (row o of W is output feature o),

      out[b, s, o] = ∑ d < 4096, x[b, s, d] · W[o, d].

  The kernel works on the activations flattened to A[r, ·] with r = b · 2048 + s, and cuts the contraction into four
  consecutive blocks of 1024 terms which it adds one after the other onto zero. Over the extended reals addition is
  commutative and associative with no side condition, so the four partial sums add up to the whole sum whether or not
  the entries are finite: that is the only law the two programs differ by.
-/
import Idealize.ShloMosaic.PureOps.Ideal
import Idealize.ShloMosaic.Lib.ValueIdx
import proofs.«147119_j72430328479853_2_alg».proof.Proof.LibBlockAcc

noncomputable section

open scoped BigOperators

namespace PQLinear

open Idealize.ShloMosaic Idealize.ShloMosaic.ValueIdx

/-- The activations' shape, the flattened activations' (and the flattened result's), and the weight's. -/
abbrev SX : Shape := ⟨3, ![4, 2048, 4096]⟩
abbrev SA : Shape := ⟨2, ![8192, 4096]⟩
abbrev SW : Shape := ⟨2, ![4096, 4096]⟩

/-- The layer's output: entry (b, s, o) is the sum over d of x[b, s, d] · W[o, d]. -/
def G (x : SX.Idx → EReal) (W : SW.Idx → EReal) : SX.Idx → EReal :=
  fun i => ∑ d : Fin 4096, x (ix3 (i 0) (i 1) d) * W (ix2 (i 2) d)

/-- The same product on flattened activations: entry (r, o) is the sum over d of A[r, d] · W[o, d]. -/
def Gflat (A : SA.Idx → EReal) (W : SW.Idx → EReal) : SA.Idx → EReal :=
  fun j => ∑ d : Fin 4096, A (ix2 (j 0) d) * W (ix2 (j 1) d)

/-- The products along the contracted axis for row r of A and row o of W, as a sequence (zero past the axis's end). -/
def term (A : SA.Idx → EReal) (W : SW.Idx → EReal) (r : Fin 8192) (o : Fin 4096) (d : ℕ) : EReal :=
  if h : d < 4096 then A (ix2 r ⟨d, h⟩) * W (ix2 o ⟨d, h⟩) else 0

theorem term_of_lt (A : SA.Idx → EReal) (W : SW.Idx → EReal) (r : Fin 8192) (o : Fin 4096) (d : ℕ) (h : d < 4096) :
    term A W r o d = A (ix2 r ⟨d, h⟩) * W (ix2 o ⟨d, h⟩) := dif_pos h

/-- Four blocks of 1024 products are the whole contraction: the accumulator after the fourth block is entry (r, o) of
    the product. -/
theorem partialSum_four (A : SA.Idx → EReal) (W : SW.Idx → EReal) (r : Fin 8192) (o : Fin 4096) :
    BlockAcc.partialSum 1024 (term A W r o) 4 = Gflat A W (ix2 r o) := by
  rw [BlockAcc.partialSum_all 1024 4 4096 rfl]
  exact Finset.sum_congr rfl fun d _ => term_of_lt A W r o d.val d.isLt

end PQLinear

end
-- ==== Proof.KernelAcc.lean ====
/-
  The accumulation along the contraction axis. Fix a tile (i, j) of the result and an entry (p, q) of it, that is entry
  (r, o) = (i · 2048 + p, j · 1024 + q) of the result. The four points (i, j, 0), …, (i, j, 3) are consecutive in the
  grid's order and work on the same staging tile without writing it back in between. By induction on the point: after
  point (i, j, k) the tile's entry (p, q) holds the sum of the first 1024 · (k + 1) products A[r, d] · W[o, d] —
  the first point of a run starts from zero, every other point adds its block of 1024 products to what the point
  before left.
-/
import proofs.«147119_j72430328479853_2_alg».proof.Proof.KernelBody
import proofs.«147119_j72430328479853_2_alg».proof.Proof.KernelBlocks
import proofs.«147119_j72430328479853_2_alg».proof.Proof.Spec

noncomputable section

open scoped BigOperators
open Idealize.ShloMosaic Idealize.ShloMosaic.TcCoe Idealize.SL.Sem

namespace Cert.KernelIdeal.Acc

open Cert.KernelIdeal Cert.KernelIdeal.Gen Idealize.ShloMosaic.ValueIdx PQLinear

variable (m : (ℓ : Loc nD τ sig) → Buf (Elt Ideal) ℓ)

/-- The flattened activations and the weight matrix as the kernel finds them. -/
abbrev A (c : Dev nD) : SA.Idx → EReal := V m c main_v19
abbrev W (c : Dev nD) : SW.Idx → EReal := V m c main_v20

/-- One point's work on one entry: if the tile's entry holds the first k blocks' sum and the two input tiles hold the
    factors of block k, the stored entry is the first k + 1 blocks' sum. -/
theorem step (xo : FVec Ideal S2048x1024 .f32) (x0 : FVec Ideal S2048x1024 .bf16) (x1 : FVec Ideal S1024x1024 .bf16)
    (f : ℕ → EReal) (k : ℕ) (p : Fin 2048) (q : Fin 1024)
    (hxo : xo (ix2 p q) = BlockAcc.partialSum 1024 f k)
    (hprod : ∀ s : Fin 1024, x0 (ix2 p s) * x1 (ix2 q s) = f (1024 * k + s.val)) :
    k0_pay2 (F := Ideal) xo x0 x1 (ix2 p q) = BlockAcc.partialSum 1024 f (k + 1) := by
  rw [Body.pay2_apply, hxo, BlockAcc.partialSum_succ]
  exact congrArg (BlockAcc.partialSum 1024 f k + ·) (Finset.sum_congr rfl fun s _ => hprod s)

/-- A product of two tile entries that sit at column e of row r of A and of row o of W is product number e of that pair
    of rows. -/
theorem prod_term (A : SA.Idx → EReal) (W : SW.Idx → EReal) (r : Fin 8192) (o : Fin 4096) (a w : EReal) (e : ℕ)
    (he : e < 4096) (ha : a = A (ix2 r ⟨e, he⟩)) (hw : w = W (ix2 o ⟨e, he⟩)) : a * w = term A W r o e := by
  rw [term_of_lt A W r o e he, ha, hw]

/-- At point n the product of the two tiles' entries (p, s) and (q, s) is product number 1024 · (n % 4) + s of row r of
    A against row o of W. -/
theorem prod_eq (c : Dev nD) (t : Fin cfg0.N) (p : Fin 2048) (q s : Fin 1024) (r : Fin 8192) (o : Fin 4096)
    (hr : r.val = t.val / 16 * 2048 + p.val) (ho : o.val = t.val / 4 % 4 * 1024 + q.val)
    (x0 : FVec Ideal S2048x1024 .bf16) (x1 : FVec Ideal S1024x1024 .bf16) (h0 : x0 = iblk m c 0 t) (h1 : x1 = iblk m c 1 t) :
    x0 (ix2 p s) * x1 (ix2 q s) = term (A m c) (W m c) r o (1024 * (t.val % 4) + s.val) := by
  have hd : 1024 * (t.val % 4) + s.val < 4096 := by have := s.isLt; omega
  subst h0 h1
  exact prod_term (A m c) (W m c) r o _ _ _ hd
    (Blocks.iblk0_apply m c t p s r ⟨_, hd⟩ hr (by show 1024 * (t.val % 4) + s.val = _; omega))
    (Blocks.iblk1_apply m c t q s o ⟨_, hd⟩ ho (by show 1024 * (t.val % 4) + s.val = _; omega))

/-- The first point of a run leaves the first block's sum. -/
theorem first (c : Dev nD) (t : Fin cfg0.N) (h0 : t.val % 4 = 0) (p : Fin 2048) (q : Fin 1024) (r : Fin 8192) (o : Fin 4096)
    (hr : r.val = t.val / 16 * 2048 + p.val) (ho : o.val = t.val / 4 % 4 * 1024 + q.val) :
    outsAt0 m c t.val t.isLt (ix2 p q) = BlockAcc.partialSum 1024 (term (A m c) (W m c) r o) 1 := by
  rw [outsAt0_A m c t h0, Body.out_A]
  refine step (k0_pay1 (F := Ideal)) (iblk m c 0 t) (iblk m c 1 t) (term (A m c) (W m c) r o) 0 p q ?_ ?_
  · rw [Body.zero_apply, BlockAcc.partialSum_zero]
  · intro s
    rw [prod_eq m c t p q s r o hr ho (iblk m c 0 t) (iblk m c 1 t) rfl rfl, h0]

/-- After point n the result tile's entry (p, q) holds the sum of the first 1024 · (n % 4 + 1) products. -/
theorem inv (c : Dev nD) : ∀ (n : ℕ) (h : n < cfg0.N) (p : Fin 2048) (q : Fin 1024) (r : Fin 8192) (o : Fin 4096),
    r.val = n / 16 * 2048 + p.val → o.val = n / 4 % 4 * 1024 + q.val →
    outsAt0 m c n h (ix2 p q) = BlockAcc.partialSum 1024 (term (A m c) (W m c) r o) (n % 4 + 1)
  | 0, h, p, q, r, o, hr, ho => first m c ⟨0, h⟩ rfl p q r o hr ho
  | n + 1, h, p, q, r, o, hr, ho => by
    by_cases h0 : (n + 1) % 4 = 0
    · rw [h0]
      exact first m c ⟨n + 1, h⟩ h0 p q r o hr ho
    · rw [outsAt0_B m c ⟨n + 1, h⟩ h0, Body.out_B]
      have hk : (n + 1) % 4 + 1 = (n % 4 + 1) + 1 := by omega
      rw [hk]
      refine step (outsAt0 m c n (Nat.lt_of_succ_lt h)) (iblk m c 0 ⟨n + 1, h⟩) (iblk m c 1 ⟨n + 1, h⟩)
        (term (A m c) (W m c) r o) (n % 4 + 1) p q ?_ ?_
      · exact inv c n (Nat.lt_of_succ_lt h) p q r o (by omega) (by omega)
      · intro s
        rw [prod_eq m c ⟨n + 1, h⟩ p q s r o hr ho (iblk m c 0 ⟨n + 1, h⟩) (iblk m c 1 ⟨n + 1, h⟩) rfl rfl]
        have hk' : (n + 1) % 4 = n % 4 + 1 := by omega
        show term (A m c) (W m c) r o (1024 * ((n + 1) % 4) + s.val) = _
        rw [hk']

/-- At the last point of a run — the only points where the tile is written back — the entry is entry (r, o) of the
    whole product. -/
theorem last (c : Dev nD) (t : Fin cfg0.N) (h3 : t.val % 4 = 3) (p : Fin 2048) (q : Fin 1024) (r : Fin 8192) (o : Fin 4096)
    (hr : r.val = t.val / 16 * 2048 + p.val) (ho : o.val = t.val / 4 % 4 * 1024 + q.val) :
    outsAt0 m c t.val t.isLt (ix2 p q) = Gflat (A m c) (W m c) (ix2 r o) := by
  rw [inv m c t.val t.isLt p q r o hr ho, h3]
  exact partialSum_four (A m c) (W m c) r o

end Cert.KernelIdeal.Acc

end
-- ==== Proof.KernelValue.lean ====
/-
  The kernel's result as one function of its arguments. Each result tile is written back once, after the last of its
  four points, when it holds the whole contraction; the sixteen tiles fill the result, so the array the pipeline
  leaves is the product A · Wᵀ of the flattened activations and the weight matrix, entry by entry. Around the
  pipeline the program flattens x[b, s, ·] to A[b · 2048 + s, ·] (a change of float format follows, the identity on
  extended reals) and lays the result out again as [b, s, o]; read through both, entry (b, s, o) of the program's
  result is ∑ d, x[b, s, d] · W[o, d].
-/
import proofs.«147119_j72430328479853_2_alg».proof.Proof.KernelAcc
import Idealize.ShloMosaic.Lib.StableHlo.Run

noncomputable section

open scoped BigOperators
open Idealize.ShloMosaic Idealize.ShloMosaic.TcCoe Idealize.SL.Sem
open Idealize.ShloMosaic.Pipeline (Dat)

namespace Cert.KernelIdeal.Value

open Cert.KernelIdeal Cert.KernelIdeal.Gen Idealize.ShloMosaic.ValueIdx PQLinear

variable (m : (ℓ : Loc nD τ sig) → Buf (Elt Ideal) ℓ) (ρ : Dev nD → PrngReg)

/-! ## The array the pipeline leaves -/

/-- What a point writes back is its tile of the product: only the last point of a run of four writes back, and by then
    the tile's entries hold all four blocks' sums. -/
theorem flushed_eq (c : Dev nD) (t : Fin cfg0.N) (hf : (cfg0.win 2).flush t = true) :
    (dats m 0 c).flushed 2 t = ((cfg0.win 2).blk t).view.read (Elt Ideal) (Gflat (Acc.A m c) (Acc.W m c)) := by
  have h3 : t.val % 4 = 3 := (flush0_2 t).mp hf
  have hN : t.val < 64 := lt_of_lt_of_eq t.isLt (show cfg0.N = 64 from N_0)
  show (cfg0.win 2).cut (grid0.coords t) ((dats m 0 c).after 2 t) = _
  rw [after0_2]
  funext j
  obtain ⟨p, q, rfl⟩ : ∃ (p : Fin 2048) (q : Fin 1024), j = ix2 p q := ⟨j 0, j 1, eq_ix2 j⟩
  show outsAt0 m c t.val t.isLt (ix2 p q) = Gflat (Acc.A m c) (Acc.W m c) (((cfg0.win 2).blk t).view.emb (ix2 p q))
  rw [Blocks.oblk_emb t p q ⟨t.val / 16 * 2048 + p.val, by have := p.isLt; omega⟩
    ⟨t.val / 4 % 4 * 1024 + q.val, by have := q.isLt; omega⟩ rfl rfl]
  exact Acc.last m c t h3 p q _ _ rfl rfl

/-- An entry of the result is in a point's tile iff each coordinate is in the tile's range. -/
theorem mem_blk (t : Fin cfg0.N) (i : S8192x4096.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v21).slice (win0_2.rect t)).set ↔ _
  rw [View.set_slice_whole, Rect.mem_set_unit]
  exact Iff.rfl

/-- Every entry (r, o) of the result is written back: by the last point of the run of tile (r / 2048, o / 1024). -/
theorem cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hN : cfg0.N = 64 := N_0
  obtain ⟨t, ht⟩ : ∃ t : Fin cfg0.N, t.val = (i 0).val / 2048 * 16 + (i 1).val / 1024 * 4 + 3 :=
    ⟨⟨(i 0).val / 2048 * 16 + (i 1).val / 1024 * 4 + 3, by rw [hN]; omega⟩, rfl⟩
  obtain ⟨-, -, -, -, e4, e5⟩ := Blocks.idx_facts t
  refine ⟨t, (flush0_2 t).mpr (by omega), ?_⟩
  rw [mem_blk]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 1024 ≤ (i 1).val ∧ (i 1).val < win0_2.index t (1 : Fin 2) * 1024 + 1024
    omega

/-- The result array after the pipeline is the product of the flattened activations and the weight matrix. -/
theorem final (c : Dev nD) : (dats m 0 c).arrAt 2 cfg0.N = Gflat (Acc.A m c) (Acc.W m c) :=
  (dats m 0 c).arrAt_eq_of_cover 2 (Gflat (Acc.A m c) (Acc.W m c)) (flushed_eq m c) cover

/-! ## Around the pipeline -/

set_option maxHeartbeats 2000000 in
/-- The activations the pipeline is launched on: x flattened to [8192, 4096], then a change of float format. -/
theorem acts_eq (c : Dev nD) :
    Acc.A m c = truncf (F := Ideal) .bf16 (shapeCast S8192x4096 (m ((c.tc : Thread nD τ).loc main_arg0)) shapeCasts_S4x2048x4096_S8192x4096)
      bitsLt_bf16_f32 := by
  show StableHlo.after hostOps0 (fun b => m (c, b)) (Proc.devRef .tc main_v19) = _
  after_results
  rfl

/-- The program's result: the pipeline's array laid out again as [4, 2048, 4096]. -/
theorem tail_eq (c : Dev nD) :
    Pipeline.afterTail₀ cfgs (dats m) 0 (V0 m) [hostOps1] c main_v22
      = shapeCast S4x2048x4096 (Gflat (Acc.A m c) (Acc.W m c)) shapeCasts_S8192x4096_S4x2048x4096 := by
  unfold Pipeline.afterTail₀
  show StableHlo.after hostOps1 _ (Proc.devRef .tc main_v22) = _
  after_results
  rw [(Pipeline.withArrays_arr spec0 launch0.win.arr_inj c _ _ 2).trans (final m c)]
  rfl

/-- Read through the two re-layings, entry (b, s, o) of the program's result contracts x[b, s, ·] with W[o, ·]:
    row b · 2048 + s of the flattened activations is x[b, s, ·]. -/
theorem relaid (x : S4x2048x4096.Idx → EReal) (Wm : S4096x4096.Idx → EReal) :
    shapeCast S4x2048x4096
        (Gflat (truncf (F := Ideal) .bf16 (shapeCast S8192x4096 x shapeCasts_S4x2048x4096_S8192x4096) bitsLt_bf16_f32) Wm)
        shapeCasts_S8192x4096_S4x2048x4096
      = G x Wm := by
  funext i
  obtain ⟨b, s, o, rfl⟩ : ∃ (b : Fin 4) (s : Fin 2048) (o : Fin 4096), i = ix3 b s o := ⟨i 0, i 1, i 2, eq_ix3 i⟩
  have hq : b.val * 2048 + s.val < 8192 := by have := b.isLt; have := s.isLt; omega
  rw [Cert.Lib.IndexReads.unflatten_apply _ shapeCasts_S8192x4096_S4x2048x4096 ⟨b.val * 2048 + s.val, hq⟩ b s o rfl]
  show ∑ d : Fin 4096, _ = ∑ d : Fin 4096, _
  refine Finset.sum_congr rfl fun d _ => ?_
  refine congrArg (· * Wm (ix2 o d)) ?_
  exact Cert.Lib.IndexReads.flatten_apply x shapeCasts_S4x2048x4096_S8192x4096 ⟨b.val * 2048 + s.val, hq⟩ b s d rfl

/-! ## The run -/

/-- Every execution of the kernel's program ends with its result at G of the activations and of the weight matrix it
    assembled, and its arguments unchanged. -/
theorem run : θ_run defs (onTc (τ := τ) (main (F := Ideal))) ⟨m, fun _ => 0, ρ⟩ fun r => ∀ c : Dev nD,
      r.2.mem ((c.tc : Thread nD τ).loc main_v22) = G (m ((c.tc : Thread nD τ).loc main_arg0)) (Acc.W m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v22 (Pipeline.mem_restRefs_of main_v22 (by decide) (by decide))).trans
        ((tail_eq m c).trans (by rw [acts_eq m c]; exact relaid _ _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Value

end
-- ==== Proof.RefSide.lean ====
/-
  The reference's result, entry by entry: its one contraction pairs x[b, s, ·] with row o of the weight matrix, so the
  result is the specification's G of the activations and of the weight matrix the reference assembled.
-/
import proofs.«147119_j72430328479853_2_alg».proof.Proof.Gen.ReferenceIdeal.Read
import proofs.«147119_j72430328479853_2_alg».proof.Proof.Spec

noncomputable section

open scoped BigOperators

namespace Cert.ReferenceIdeal.RefValue

open Cert.ReferenceIdeal Cert.ReferenceIdeal.Read Idealize.ShloMosaic Idealize.ShloMosaic.ValueIdx

/-- The reference contracts the last axis of x against the last axis of W: at (b, s, o) the left factor is
    x[b, s, d] and the right factor W[o, d]. -/
theorem result_eq (x0 : (⟨S4x2048x4096, .f32⟩ : BufTy).Contents (Elt Ideal))
    (x1 : (⟨S32x256x128, .f32⟩ : BufTy).Contents (Elt Ideal)) (x2 : (⟨S4096x32, .i32⟩ : BufTy).Contents (Elt Ideal)) :
    val_main_v18 (F := Ideal) x0 x1 x2 = PQLinear.G x0 (val_main_v17 (F := Ideal) x1 x2) := by
  funext i
  rw [val_main_v18_apply]
  unfold PQLinear.G
  refine Finset.sum_congr rfl fun d _ => ?_
  have el : lidx_main_v18 i d = ix3 (i 0) (i 1) d := funext fun a => Fin.ext (by
    match a with
    | ⟨0, _⟩ => rfl
    | ⟨1, _⟩ => rfl
    | ⟨2, _⟩ => rfl)
  have er : ridx_main_v18 i d = ix2 (i 2) d := funext fun a => Fin.ext (by
    match a with
    | ⟨0, _⟩ => rfl
    | ⟨1, _⟩ => rfl)
  rw [el, er]
  rfl

end Cert.ReferenceIdeal.RefValue

end
-- ==== Proof.Weights.lean ====
/-
  Both programs assemble the dense weight matrix W[o, ·] from the codebooks and the assignments by the same host
  operations (the centroid chosen for each output feature and subvector, gathered and laid side by side); the kernel's
  program then only changes W's float format, which over the extended reals is the identity. So the matrix the kernel
  finds is the matrix the reference multiplies by.
-/
import proofs.«147119_j72430328479853_2_alg».proof.Proof.Gen.KernelIdeal.Frame
import proofs.«147119_j72430328479853_2_alg».proof.Proof.Gen.ReferenceIdeal.Read
import Idealize.ShloMosaic.Lib.StableHlo.Run

noncomputable section

open Idealize.ShloMosaic Idealize.ShloMosaic.TcCoe Idealize.SL.Sem

namespace Cert.KernelIdeal.Weights

open Cert.KernelIdeal Cert.KernelIdeal.Gen

variable (m : (ℓ : Loc nD τ sig) → Buf (Elt Ideal) ℓ)

set_option maxHeartbeats 2000000 in
/-- The weight matrix the kernel's pipeline is launched on is the reference's weight matrix of the same codebooks and
    assignments. -/
theorem W_eq (c : Dev nD) :
    V m c main_v20 = Cert.ReferenceIdeal.Read.val_main_v17 (F := Ideal)
      (m ((c.tc : Thread nD τ).loc main_arg1)) (m ((c.tc : Thread nD τ).loc main_arg2)) := by
  show StableHlo.after hostOps0 (fun b => m (c, b)) (Proc.devRef .tc main_v20) = _
  after_results
  rfl

end Cert.KernelIdeal.Weights

end
-- ==== Proof.lean ====
/-
  A linear layer whose weight matrix is stored as codebooks. Output feature o's row of weights W[o, ·] (4096 entries)
  is 32 centroids of 128 entries laid side by side, centroid number assignments[o, s] of codebook s in place s. With
  x of shape [4, 2048, 4096],

      out[b, s, o] = ∑ d < 4096, x[b, s, d] · W[o, d].

  The reference assembles W on the host and takes this contraction in one operation. The kernel's program assembles
  the same W by the same host operations, flattens x to A[r, ·] with r = b · 2048 + s, and computes A · Wᵀ on a
  4 × 4 × 4 grid of tiles: for each result tile (2048 rows by 1024 output features) it runs over the contraction axis
  in four blocks of 1024, starting the tile from zero at the first block and adding each block's partial products to
  the tile, and writes the tile back after the fourth; the result is then laid out again as [b, s, o].

  Over the extended reals a change of float format is the identity and + is commutative and associative without any
  side condition, so zero plus the four partial sums, in the order taken, is the sum over all 4096 products: the two
  programs end with the same array whether or not the inputs are finite, and the precondition is not used.

  Modules: Spec (the product as a function G, and four blocks of 1024 are the whole sum), RefSide (the reference's
  contraction is G), Weights (both programs find the same W), KernelBody (one grid point: tile + a · wᵀ),
  KernelBlocks (which tiles a point reads and writes), KernelAcc (the running sums along the contraction axis, by
  induction on the point), KernelValue (the tiles fill the result; the re-layings around the pipeline; the run).
-/
import proofs.«147119_j72430328479853_2_alg».proof.Defs
import proofs.«147119_j72430328479853_2_alg».proof.Proof.Gen.Kernel
import proofs.«147119_j72430328479853_2_alg».proof.Proof.Gen.Kernel.Frame
import proofs.«147119_j72430328479853_2_alg».proof.Proof.Gen.KernelIdeal
import proofs.«147119_j72430328479853_2_alg».proof.Proof.Gen.KernelIdeal.Frame
import proofs.«147119_j72430328479853_2_alg».proof.Proof.Gen.ReferenceIdeal
import proofs.«147119_j72430328479853_2_alg».proof.Proof.Gen.Pre_finite_inputs
import proofs.«147119_j72430328479853_2_alg».proof.Proof.Gen.ReferenceIdeal.Run
import proofs.«147119_j72430328479853_2_alg».proof.Proof.Gen.ReferenceIdeal.Read
import proofs.«147119_j72430328479853_2_alg».proof.Proof.KernelValue
import proofs.«147119_j72430328479853_2_alg».proof.Proof.RefSide
import proofs.«147119_j72430328479853_2_alg».proof.Proof.Weights
import Idealize.ShloMosaic.Adequacy
import Idealize.ShloMosaic.Init

noncomputable section

namespace Cert.Proof

open Idealize.ShloMosaic Idealize.SL.Sem

/-- The kernel's program as printed terminates without a fault and leaves its arguments as they were. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: it terminates with its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- From memories that agree on x, the codebooks and the assignments, both programs end with
    out[b, s, o] = ∑ d, x[b, s, d] · W[o, d] for the one weight matrix W both assemble. -/
theorem algebraic : Cert.algebraic_KernelIdeal_ReferenceIdeal := by
  intro m ρ m' ρ' _ hagree
  refine ⟨fun c => PQLinear.G (m ((c.tc : Thread Cert.KernelIdeal.nD Cert.KernelIdeal.τ).loc Cert.KernelIdeal.main_arg0))
    (Cert.KernelIdeal.Acc.W m c), Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq,
    (hagree c).1, (hagree c).2.1, (hagree c).2.2]
  exact congrArg (PQLinear.G _) (Cert.KernelIdeal.Weights.W_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
